-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x40x16 : Shape := ⟨4, ![16, 256, 40, 16]⟩
abbrev S640x2560 : Shape := ⟨2, ![640, 2560]⟩
abbrev S_ : Shape := ⟨0, ![]⟩

class Facts : Prop where
  bcast_S_S16x256x40x16 : S_.BroadcastsInDim S16x256x40x16 (![] : Fin 0 → Fin S16x256x40x16.rank)
  reducesTo_S16x256x40x16_S_d0_1_2_3 : S16x256x40x16.ReducesTo [0, 1, 2, 3] S_
  h_S_ : 0 < S_.numel
  bcast_S_S640x2560 : S_.BroadcastsInDim S640x2560 (![] : Fin 0 → Fin S640x2560.rank)
  reducesTo_S640x2560_S_d0_1 : S640x2560.ReducesTo [0, 1] S_

variable [Facts]

def fn {F : FTy → Type} [FloatOps F] (main_arg0 : FVec F S16x256x40x16 .f32) (main_arg1 : FVec F S640x2560 .f32) : IVec S_ 1 :=
  let main_v0 : FVec F S16x256x40x16 .f32 := Host.absf main_arg0
  let main_cst : FVec F S_ .f32 := constant S_ .f32 0x7F800000#32
  let main_v1 : FVec F S16x256x40x16 .f32 := broadcastInDim S16x256x40x16 ![] bcast_S_S16x256x40x16 main_cst
  let main_v2 : IVec S16x256x40x16 1 := cmpf .olt main_v0 main_v1
  let main_c : IVec S_ 1 := constantI S_ 1 1#1
  let main_v3 : IVec S_ 1 := (fun x v => Host.reduce IntOp.andi x v reducesTo_S16x256x40x16_S_d0_1_2_3 h_S_) main_v2 main_c
  let main_v4 : FVec F S640x2560 .f32 := Host.absf main_arg1
  let main_cst_0 : FVec F S_ .f32 := constant S_ .f32 0x7F800000#32
  let main_v5 : FVec F S640x2560 .f32 := broadcastInDim S640x2560 ![] bcast_S_S640x2560 main_cst_0
  let main_v6 : IVec S640x2560 1 := cmpf .olt main_v4 main_v5
  let main_c_1 : IVec S_ 1 := constantI S_ 1 1#1
  let main_v7 : IVec S_ 1 := (fun x v => Host.reduce IntOp.andi x v reducesTo_S640x2560_S_d0_1 h_S_) main_v6 main_c_1
  let main_v8 : IVec S_ 1 := andi main_v3 main_v7
  main_v8
-- ==== Kernel.lean ====
abbrev S16x256x40x16 : Shape := ⟨4, ![16, 256, 40, 16]⟩
abbrev S640x2560 : Shape := ⟨2, ![640, 2560]⟩
abbrev S16x256x640 : Shape := ⟨3, ![16, 256, 640]⟩
abbrev S16x256x80x32 : Shape := ⟨4, ![16, 256, 80, 32]⟩
abbrev S1x256x640 : Shape := ⟨3, ![1, 256, 640]⟩
abbrev S1x256x80x32 : Shape := ⟨4, ![1, 256, 80, 32]⟩
abbrev S256x640 : Shape := ⟨2, ![256, 640]⟩
abbrev S640x640 : Shape := ⟨2, ![640, 640]⟩
abbrev S256x20x32 : Shape := ⟨3, ![256, 20, 32]⟩
abbrev S1x256x20x32 : Shape := ⟨4, ![1, 256, 20, 32]⟩

abbrev nBuf : Space → Nat
  | .hbm => 4
  | .vmem => 6
  | .smem => 0
  | _ => 0

abbrev bufTy : (tb : Table) → Fin (tcTables nBuf tb) → BufTy
  | .hbm, ⟨0, _⟩ => ⟨S16x256x40x16, .f32⟩
  | .hbm, ⟨1, _⟩ => ⟨S640x2560, .f32⟩
  | .hbm, ⟨2, _⟩ => ⟨S16x256x640, .f32⟩
  | .hbm, ⟨3, _⟩ => ⟨S16x256x80x32, .f32⟩
  | .local _ .vmem, ⟨0, _⟩ => ⟨S1x256x640, .f32⟩
  | .local _ .vmem, ⟨1, _⟩ => ⟨S1x256x640, .f32⟩
  | .local _ .vmem, ⟨2, _⟩ => ⟨S640x2560, .f32⟩
  | .local _ .vmem, ⟨3, _⟩ => ⟨S1x256x80x32, .f32⟩
  | .local _ .vmem, ⟨4, _⟩ => ⟨S1x256x80x32, .f32⟩
  | .local _ .vmem, ⟨5, _⟩ => ⟨S640x2560, .bf16⟩
  | _, _ => ⟨S16x256x40x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x80x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x256x40x16_S16x256x640 : S16x256x40x16.ShapeCasts S16x256x640
  inb_S640x2560_S640x2560_0_0 : ∀ a, (![0, 0] : Fin 2 → Nat) a + S640x2560.size a ≤ S640x2560.size a
  h_S640x2560 : 0 < S640x2560.numel
  bitsLt_bf16_f32 : FTy.bits .bf16 < FTy.bits .f32
  shapeCasts_S640x2560_S640x2560 : S640x2560.ShapeCasts S640x2560
  packedbf16_S640x2560_S640x2560_0_0 : (Rect.unit (s := S640x2560) ![0, 0] S640x2560.size inb_S640x2560_S640x2560_0_0).PackedRows (EltTy.packing .bf16)
  inb_S1x256x640_S1x256x640_0_0_0 : ∀ a, (![0, 0, 0] : Fin 3 → Nat) a + S1x256x640.size a ≤ S1x256x640.size a
  h_S1x256x640 : 0 < S1x256x640.numel
  shapeCasts_S1x256x640_S256x640 : S1x256x640.ShapeCasts S256x640
  inb_S640x2560_S640x640_0_0 : ∀ a, (![0, 0] : Fin 2 → Nat) a + S640x640.size a ≤ S640x2560.size a
  h_S640x640 : 0 < S640x640.numel
  shapeCasts_S256x640_S256x20x32 : S256x640.ShapeCasts S256x20x32
  inb_S1x256x80x32_S1x256x20x32_0_0_0_0 : ∀ a, (![0, 0, 0, 0] : Fin 4 → Nat) a + S1x256x20x32.size a ≤ S1x256x80x32.size a
  h_S1x256x20x32 : 0 < S1x256x20x32.numel
  shapeCasts_S1x256x20x32_S256x20x32 : S1x256x20x32.ShapeCasts S256x20x32
  shapeCasts_S256x20x32_S1x256x20x32 : S256x20x32.ShapeCasts S1x256x20x32
  inb_S640x2560_S640x640_0_640 : ∀ a, (![0, 640] : Fin 2 → Nat) a + S640x640.size a ≤ S640x2560.size a
  inb_S1x256x80x32_S1x256x20x32_0_0_20_0 : ∀ a, (![0, 0, 20, 0] : Fin 4 → Nat) a + S1x256x20x32.size a ≤ S1x256x80x32.size a
  inb_S640x2560_S640x640_0_1280 : ∀ a, (![0, 1280] : Fin 2 → Nat) a + S640x640.size a ≤ S640x2560.size a
  inb_S1x256x80x32_S1x256x20x32_0_0_40_0 : ∀ a, (![0, 0, 40, 0] : Fin 4 → Nat) a + S1x256x20x32.size a ≤ S1x256x80x32.size a
  inb_S640x2560_S640x640_0_1920 : ∀ a, (![0, 1920] : Fin 2 → Nat) a + S640x640.size a ≤ S640x2560.size a
  inb_S1x256x80x32_S1x256x20x32_0_0_60_0 : ∀ a, (![0, 0, 60, 0] : Fin 4 → Nat) a + S1x256x20x32.size a ≤ S1x256x80x32.size a
  dot_S256x640_S640x640_S256x640_1_0_0_1_n_n_wf : DotDims.WF S256x640 S640x640 S256x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x640.size a ≤ S16x256x640.size a
  hwx0_0 : ∀ i : grid0.Coords, EltTy.bits .f32 = 32 ∨ (Rect.block (s := S16x256x640) S1x256x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x2560.size a ≤ S640x2560.size a
  hwx0_1 : ∀ i : grid0.Coords, EltTy.bits .f32 = 32 ∨ (Rect.block (s := S640x2560) S640x2560.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x80x32.size a ≤ S16x256x80x32.size a
  hwx0_2 : ∀ i : grid0.Coords, EltTy.bits .f32 = 32 ∨ (Rect.block (s := S16x256x80x32) S1x256x80x32.size (cc0_transform_2 i) (hinb0_2 i)).WholeWords (EltTy.packing .f32)

variable [Facts₀]

def dot_S256x640_S640x640_S256x640_1_0_0_1_n_n : DotDims S256x640 S640x640 S256x640 where
  lhsContracting := [1]
  rhsContracting := [0]
  lhsNonContracting := [0]
  rhsNonContracting := [1]
  lhsBatch := []
  rhsBatch := []
  wf := dot_S256x640_S640x640_S256x640_1_0_0_1_n_n_wf

abbrev win0_0 : Pipeline.Window sig grid0 :=
  Pipeline.Window.ofSpec (Memref.whole main_v0) S1x256x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S640x2560.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x80x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x40x16 : Shape := ⟨4, ![16, 256, 40, 16]⟩
abbrev S640x2560 : Shape := ⟨2, ![640, 2560]⟩
abbrev S16x256x640 : Shape := ⟨3, ![16, 256, 640]⟩
abbrev S16x256x2560 : Shape := ⟨3, ![16, 256, 2560]⟩
abbrev S1x256x640 : Shape := ⟨3, ![1, 256, 640]⟩
abbrev S1x256x2560 : Shape := ⟨3, ![1, 256, 2560]⟩
abbrev S256x640 : Shape := ⟨2, ![256, 640]⟩
abbrev S256x2560 : Shape := ⟨2, ![256, 2560]⟩
abbrev S16x256x80x32 : Shape := ⟨4, ![16, 256, 80, 32]⟩

abbrev nBuf : Space → Nat
  | .hbm => 5
  | .vmem => 5
  | .smem => 0
  | _ => 0

abbrev bufTy : (tb : Table) → Fin (tcTables nBuf tb) → BufTy
  | .hbm, ⟨0, _⟩ => ⟨S16x256x40x16, .f32⟩
  | .hbm, ⟨1, _⟩ => ⟨S640x2560, .f32⟩
  | .hbm, ⟨2, _⟩ => ⟨S16x256x640, .f32⟩
  | .hbm, ⟨3, _⟩ => ⟨S16x256x2560, .f32⟩
  | .hbm, ⟨4, _⟩ => ⟨S16x256x80x32, .f32⟩
  | .local _ .vmem, ⟨0, _⟩ => ⟨S1x256x640, .f32⟩
  | .local _ .vmem, ⟨1, _⟩ => ⟨S1x256x640, .f32⟩
  | .local _ .vmem, ⟨2, _⟩ => ⟨S640x2560, .f32⟩
  | .local _ .vmem, ⟨3, _⟩ => ⟨S1x256x2560, .f32⟩
  | .local _ .vmem, ⟨4, _⟩ => ⟨S1x256x2560, .f32⟩
  | _, _ => ⟨S16x256x40x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x256x40x16_S16x256x640 : S16x256x40x16.ShapeCasts S16x256x640
  inb_S1x256x640_S1x256x640_0_0_0 : ∀ a, (![0, 0, 0] : Fin 3 → Nat) a + S1x256x640.size a ≤ S1x256x640.size a
  h_S1x256x640 : 0 < S1x256x640.numel
  shapeCasts_S1x256x640_S256x640 : S1x256x640.ShapeCasts S256x640
  inb_S640x2560_S640x2560_0_0 : ∀ a, (![0, 0] : Fin 2 → Nat) a + S640x2560.size a ≤ S640x2560.size a
  h_S640x2560 : 0 < S640x2560.numel
  inb_S1x256x2560_S1x256x2560_0_0_0 : ∀ a, (![0, 0, 0] : Fin 3 → Nat) a + S1x256x2560.size a ≤ S1x256x2560.size a
  h_S1x256x2560 : 0 < S1x256x2560.numel
  shapeCasts_S1x256x2560_S256x2560 : S1x256x2560.ShapeCasts S256x2560
  shapeCasts_S256x2560_S1x256x2560 : S256x2560.ShapeCasts S1x256x2560
  shapeCasts_S16x256x2560_S16x256x80x32 : S16x256x2560.ShapeCasts S16x256x80x32
  dot_S256x640_S640x2560_S256x2560_1_0_0_1_n_n_wf : DotDims.WF S256x640 S640x2560 S256x2560 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x640.size a ≤ S16x256x640.size a
  hwx0_0 : ∀ i : grid0.Coords, EltTy.bits .f32 = 32 ∨ (Rect.block (s := S16x256x640) S1x256x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x2560.size a ≤ S640x2560.size a
  hwx0_1 : ∀ i : grid0.Coords, EltTy.bits .f32 = 32 ∨ (Rect.block (s := S640x2560) S640x2560.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2560.size a ≤ S16x256x2560.size a
  hwx0_2 : ∀ i : grid0.Coords, EltTy.bits .f32 = 32 ∨ (Rect.block (s := S16x256x2560) S1x256x2560.size (cc0_transform_2 i) (hinb0_2 i)).WholeWords (EltTy.packing .f32)

variable [Facts₀]

def dot_S256x640_S640x2560_S256x2560_1_0_0_1_n_n : DotDims S256x640 S640x2560 S256x2560 where
  lhsContracting := [1]
  rhsContracting := [0]
  lhsNonContracting := [0]
  rhsNonContracting := [1]
  lhsBatch := []
  rhsBatch := []
  wf := dot_S256x640_S640x2560_S256x2560_1_0_0_1_n_n_wf

abbrev win0_0 : Pipeline.Window sig grid0 :=
  Pipeline.Window.ofSpec (Memref.whole main_v0) S1x256x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S640x2560.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x2560.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.Upsample.lean ====
/-
  What both programs compute, written once over the exact extended reals.

  The input images are read flattened: `xf (b, c, k)` is pixel `k` (of 640) of channel `c` of batch element `b`.
  The operator `M` has one row per input pixel and one column per output pixel; output pixel `(h, w)` of an
  80 × 32 image is column `32 h + w`. Every (batch, channel) row is multiplied by the operator:

      image xf M (b, c, h, w) = Σ_k xf (b, c, k) · M (k, 32 h + w).

  `rows` is the same product before the 2560 columns are read as 80 × 32 pixels, and `shapeCast_rows` says that
  reading them so (a row-major reshape) gives `image`. `block` and `rowsBlock` are the same two sums over one batch
  element's slice, the unit a grid point works on.
-/
import Idealize.ShloMosaic.PureOps.Ideal.Laws
import Idealize.ShloMosaic.Lib.ValueIdx
import Idealize.ShloMosaic.Lib.Pipeline.Value

noncomputable section

namespace Cert.Upsample

open Idealize.ShloMosaic Idealize.ShloMosaic.ValueIdx

/-- The flattened input: 16 batch elements, 256 channels, 640 pixels. -/
abbrev Flat : Shape := ⟨3, ![16, 256, 640]⟩
/-- The operator: 640 input pixels by 2560 output pixels. -/
abbrev Oper : Shape := ⟨2, ![640, 2560]⟩
/-- The product with the output pixels still in one axis. -/
abbrev Rows : Shape := ⟨3, ![16, 256, 2560]⟩
/-- The output images: 80 × 32 pixels each. -/
abbrev Img : Shape := ⟨4, ![16, 256, 80, 32]⟩
/-- One batch element of the flattened input, of the flat product and of the output. -/
abbrev FlatB : Shape := ⟨3, ![1, 256, 640]⟩
abbrev RowsB : Shape := ⟨3, ![1, 256, 2560]⟩
abbrev ImgB : Shape := ⟨4, ![1, 256, 80, 32]⟩

/-- The operator's column for output pixel `(h, w)`: `32 h + w`. -/
def col (h : Fin 80) (w : Fin 32) : Fin 2560 := ⟨32 * h.val + w.val, by have := h.isLt; have := w.isLt; omega⟩

theorem col_val (h : Fin 80) (w : Fin 32) : (col h w).val = 32 * h.val + w.val := rfl

/-- Every row times the operator, the output pixels in one axis. -/
def rows (xf : Flat.Idx → EReal) (M : Oper.Idx → EReal) : Rows.Idx → EReal :=
  fun i => ∑ k : Fin 640, xf (ix3 (n0 := 16) (n1 := 256) ⟨(i 0).val, (i 0).isLt⟩ ⟨(i 1).val, (i 1).isLt⟩ k)
    * M (ix2 (n1 := 2560) k ⟨(i 2).val, (i 2).isLt⟩)

/-- Every row times the operator, as 80 × 32 images. -/
def image (xf : Flat.Idx → EReal) (M : Oper.Idx → EReal) : Img.Idx → EReal :=
  fun i => ∑ k : Fin 640, xf (ix3 (n0 := 16) (n1 := 256) ⟨(i 0).val, (i 0).isLt⟩ ⟨(i 1).val, (i 1).isLt⟩ k)
    * M (ix2 k (col ⟨(i 2).val, (i 2).isLt⟩ ⟨(i 3).val, (i 3).isLt⟩))

/-- One batch element's rows times the operator, the output pixels in one axis. -/
def rowsBlock (x : FlatB.Idx → EReal) (M : Oper.Idx → EReal) : RowsB.Idx → EReal :=
  fun y => ∑ k : Fin 640, x (ix3 (n0 := 1) (n1 := 256) ⟨(y 0).val, (y 0).isLt⟩ ⟨(y 1).val, (y 1).isLt⟩ k)
    * M (ix2 (n1 := 2560) k ⟨(y 2).val, (y 2).isLt⟩)

/-- One batch element's rows times the operator, as 80 × 32 images. -/
def block (x : FlatB.Idx → EReal) (M : Oper.Idx → EReal) : ImgB.Idx → EReal :=
  fun y => ∑ k : Fin 640, x (ix3 (n0 := 1) (n1 := 256) ⟨(y 0).val, (y 0).isLt⟩ ⟨(y 1).val, (y 1).isLt⟩ k)
    * M (ix2 k (col ⟨(y 2).val, (y 2).isLt⟩ ⟨(y 3).val, (y 3).isLt⟩))

theorem rows_apply (xf : Flat.Idx → EReal) (M : Oper.Idx → EReal) (b : Fin 16) (c : Fin 256) (q : Fin 2560) :
    rows xf M (ix3 b c q) = ∑ k : Fin 640, xf (ix3 b c k) * M (ix2 k q) := rfl

theorem image_apply (xf : Flat.Idx → EReal) (M : Oper.Idx → EReal) (b : Fin 16) (c : Fin 256) (h : Fin 80) (w : Fin 32) :
    image xf M (ix4 b c h w) = ∑ k : Fin 640, xf (ix3 b c k) * M (ix2 k (col h w)) := rfl

theorem rowsBlock_apply (x : FlatB.Idx → EReal) (M : Oper.Idx → EReal) (u : Fin 1) (c : Fin 256) (q : Fin 2560) :
    rowsBlock x M (ix3 u c q) = ∑ k : Fin 640, x (ix3 u c k) * M (ix2 k q) := rfl

theorem block_apply (x : FlatB.Idx → EReal) (M : Oper.Idx → EReal) (u : Fin 1) (c : Fin 256) (h : Fin 80) (w : Fin 32) :
    block x M (ix4 u c h w) = ∑ k : Fin 640, x (ix3 u c k) * M (ix2 k (col h w)) := rfl

/-- Reading the 2560 columns of each row as 80 × 32 pixels, row-major, turns `rows` into `image`: pixel `(h, w)`
    sits at position `32 h + w` of its row. -/
theorem shapeCast_rows (xf : Flat.Idx → EReal) (M : Oper.Idx → EReal) (hc : Rows.ShapeCasts Img) :
    shapeCast Img (rows xf M) hc = image xf M := by
  funext i
  obtain ⟨b, c, h, w, rfl⟩ : ∃ (b : Fin 16) (c : Fin 256) (h : Fin 80) (w : Fin 32), i = ix4 b c h w :=
    ⟨i 0, i 1, i 2, i 3, eq_ix4 i⟩
  refine (shapeCast_apply (rows xf M) hc (ix4 b c h w) (ix3 b c (col h w)) ?_).trans rfl
  rw [Shape.rowMajor_val_three, Shape.rowMajor_val_four]
  show (b.val * 256 + c.val) * 2560 + (32 * h.val + w.val) = ((b.val * 256 + c.val) * 80 + h.val) * 32 + w.val
  omega

/-- One batch element's flat product is the whole product at that batch element: if the slice `x` holds batch element
    `b` of `xf` and `s` holds the operator, then `rowsBlock x s` at `(u, c, q)` is `rows xf M` at `(b, c, q)`. -/
theorem rowsBlock_eq_rows (xf : Flat.Idx → EReal) (M : Oper.Idx → EReal) (x : FlatB.Idx → EReal) (s : Oper.Idx → EReal)
    (b : Fin 16) (hx : ∀ (u : Fin 1) (c : Fin 256) (k : Fin 640), x (ix3 u c k) = xf (ix3 b c k))
    (hs : ∀ (k : Fin 640) (q : Fin 2560), s (ix2 k q) = M (ix2 k q)) (y : RowsB.Idx) (i : Rows.Idx)
    (e0 : (i 0).val = b.val) (e1 : (i 1).val = (y 1).val) (e2 : (i 2).val = (y 2).val) :
    rowsBlock x s y = rows xf M i := by
  obtain ⟨u, c, q, rfl⟩ : ∃ (u : Fin 1) (c : Fin 256) (q : Fin 2560), y = ix3 u c q := ⟨y 0, y 1, y 2, eq_ix3 y⟩
  obtain rfl : i = ix3 b c q := funext fun a => Fin.ext (by
    match a with
    | ⟨0, _⟩ => exact e0
    | ⟨1, _⟩ => exact e1
    | ⟨2, _⟩ => exact e2)
  show ∑ k : Fin 640, x (ix3 u c k) * s (ix2 k q) = ∑ k : Fin 640, xf (ix3 b c k) * M (ix2 k q)
  exact Finset.sum_congr rfl fun k _ => by rw [hx, hs]

/-- The same for the images: `block x s` at `(u, c, h, w)` is `image xf M` at `(b, c, h, w)`. -/
theorem block_eq_image (xf : Flat.Idx → EReal) (M : Oper.Idx → EReal) (x : FlatB.Idx → EReal) (s : Oper.Idx → EReal)
    (b : Fin 16) (hx : ∀ (u : Fin 1) (c : Fin 256) (k : Fin 640), x (ix3 u c k) = xf (ix3 b c k))
    (hs : ∀ (k : Fin 640) (q : Fin 2560), s (ix2 k q) = M (ix2 k q)) (y : ImgB.Idx) (i : Img.Idx)
    (e0 : (i 0).val = b.val) (e1 : (i 1).val = (y 1).val) (e2 : (i 2).val = (y 2).val) (e3 : (i 3).val = (y 3).val) :
    block x s y = image xf M i := by
  obtain ⟨u, c, h, w, rfl⟩ : ∃ (u : Fin 1) (c : Fin 256) (h : Fin 80) (w : Fin 32), y = ix4 u c h w :=
    ⟨y 0, y 1, y 2, y 3, eq_ix4 y⟩
  obtain rfl : i = ix4 b c h w := funext fun a => Fin.ext (by
    match a with
    | ⟨0, _⟩ => exact e0
    | ⟨1, _⟩ => exact e1
    | ⟨2, _⟩ => exact e2
    | ⟨3, _⟩ => exact e3)
  show ∑ k : Fin 640, x (ix3 u c k) * s (ix2 k (col h w)) = ∑ k : Fin 640, xf (ix3 b c k) * M (ix2 k (col h w))
  exact Finset.sum_congr rfl fun k _ => by rw [hx, hs]

end Cert.Upsample

end
-- ==== Proof.LibDense.lean ====
/-
  General facts, at the exact instance (floats as extended reals), about the operations a dense layer and a row softmax
  are made of, each read at an index written by its coordinates:
  a matrix product into a zero accumulator is the sum over the contracted axis of the products of the row's and the
  column's entries; a vector cast to one row and broadcast down the rows is the vector at the column; a vector cast
  to one column and broadcast along the rows is the vector at the row; a sum and a maximum over the second axis of a
  matrix are the sum and the maximum of the row's entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibDense

open Idealize.ShloMosaic Idealize.ShloMosaic.ValueIdx

variable {α : Type} {M K N : Nat}

/-- A matrix product of an [M, K] by a [K, N] matrix into the zero accumulator, read at (p, q): the sum over the
    contracted coordinate k of x(p, k) · w(k, q). The four hypotheses say which operand coordinate each of the
    product's index maps takes from the output index and which from the contraction index. -/
theorem matmul_zero_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector cast to one row [1, N] and broadcast to [M, N] reads, at (p, q), the vector at q. -/
theorem rowBroadcast_rc (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- An [M] vector cast to one column [M, 1] reads, at (p, u), the vector at p. -/
theorem shapeCast_a_a1_apply (v : (⟨1, ![M]⟩ : Shape).Idx → α) (h : (⟨1, ![M]⟩ : Shape).ShapeCasts ⟨2, ![M, 1]⟩)
    (p : Fin M) (u : Fin 1) : shapeCast ⟨2, ![M, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An [M, 1] column cast to the [M] vector reads, at p, the column at (p, 0). -/
theorem shapeCast_a1_a_apply (v : (⟨2, ![M, 1]⟩ : Shape).Idx → α) (h : (⟨2, ![M, 1]⟩ : Shape).ShapeCasts ⟨1, ![M]⟩)
    (p : Fin M) : shapeCast ⟨1, ![M]⟩ v h (ix1 p) = v (ix2 p (0 : Fin 1)) :=
  shapeCast_apply v h _ _ (by
    rw [Shape.rowMajor_val_two, Shape.rowMajor_val_one]
    show p.val * 1 + 0 = p.val
    omega)

/-- An [M, 1] column broadcast along the rows to [M, N] reads, at (p, q), the column at (p, 0). -/
theorem broadcastTo_a1_ab_apply (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- An [M] vector cast to one column and broadcast along the rows to [M, N] reads, at (p, q), the vector at p. -/
theorem colBroadcast_rc (v : (⟨1, ![M]⟩ : Shape).Idx → α) (h1 : (⟨1, ![M]⟩ : Shape).ShapeCasts ⟨2, ![M, 1]⟩)
    (h2 : (⟨2, ![M, 1]⟩ : Shape).Broadcasts ⟨2, ![M, N]⟩) (p : Fin M) (q : Fin N) :
    broadcastTo ⟨2, ![M, N]⟩ (shapeCast ⟨2, ![M, 1]⟩ v h1) h2 (ix2 p q) = v (ix1 p) :=
  (broadcastTo_a1_ab_apply _ h2 p q).trans (shapeCast_a_a1_apply v h1 p 0)

/-- The index of an [M, N] matrix that drops to p when the second axis is reduced, with k put on that axis, is (p, k). -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The sum over the second axis of an [M, N] matrix, read at row p: the sum of the row's entries. -/
theorem rowSum_apply (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) := by
  refine (Ideal.multiReduction_add_single src 0x00000000#32 h hφ hacc (ix1 p)).trans ?_
  exact Finset.sum_congr rfl fun k _ => congrArg src (lift_row h p k)

/-- The maximum over the second axis of an [M, N] matrix, read at row p: the fold of max, from minus infinity's
    pattern, over the row's entries. -/
theorem rowMax_apply (src : FVec Ideal ⟨2, ![M, N]⟩ .f32) (h : (⟨2, ![M, N]⟩ : Shape).Reduces [1] ⟨1, ![M]⟩)
    (hφ : FKind.Formats .f32) (hacc : (0xFF800000#32 : BitVec 32) = 0xFF800000#32) (p : Fin M) :
    multiReduction .maximumf [1] ⟨1, ![M]⟩ src 0xFF800000#32 h hφ hacc (ix1 p)
      = (Finset.univ : Finset (Fin N)).fold max (Ideal.ofBits .f32 0xFF800000#32) (fun k => src (ix2 p k)) := by
  refine (Ideal.multiReduction_maximumf_single src 0xFF800000#32 h hφ hacc (ix1 p)).trans ?_
  have e : (src ∘ h.lift (ix1 p)) = fun k => src (ix2 p k) := funext fun k => congrArg src (lift_row h p k)
  rw [e]
  rfl

/-- The host's reduction by maximum over the second axis of an [M, N] matrix, read at row p: the same fold, from the
    initial value's one element. -/
theorem hostRowMax_apply {u : Shape} (x : (⟨2, ![M, N]⟩ : Shape).Idx → EReal) (init : u.Idx → EReal)
    (h' : (⟨2, ![M, N]⟩ : Shape).ReducesTo [1] ⟨1, ![M]⟩) (h : (⟨2, ![M, N]⟩ : Shape).Reduces [1] ⟨1, ![M]⟩)
    (hu : 0 < u.numel) (p : Fin M) :
    Host.reduce (FloatOps.maximumf (F := Ideal) (φ := .f32)) x init h' hu (ix1 p)
      = (Finset.univ : Finset (Fin N)).fold max (init (Shape.Idx.first hu)) (fun k => x (ix2 p k)) := by
  refine (Host.reduce_eq_fold_single _ x init h' h hu (ix1 p)).trans ?_
  have e : (x ∘ h.lift (ix1 p)) = fun k => x (ix2 p k) := funext fun k => congrArg x (lift_row h p k)
  rw [e]
  rfl

/-! ## What a dense layer and a row softmax compute -/

/-- The f32 zero word's value (the rectifier's threshold and the sums' initial value). -/
abbrev zeroWord : EReal := Ideal.ofBits .f32 0x00000000#32

/-- Minus infinity's f32 word's value (the maximum's initial value). -/
abbrev negInfWord : EReal := Ideal.ofBits .f32 0xFF800000#32

/-- An affine map's entry: at (r, j), the sum over k of x(r, k) · w(k, j), plus b(j). -/
def affine (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => ∑ k : Fin K, x (ix2 (n0 := M) (n1 := K) ⟨(i 0).val, (i 0).isLt⟩ k) * w (ix2 (n0 := K) (n1 := N) k ⟨(i 1).val, (i 1).isLt⟩)
    + b (ix1 (n := N) ⟨(i 1).val, (i 1).isLt⟩)

theorem affine_apply (x : (⟨2, ![M, K]⟩ : Shape).Idx → EReal) (w : (⟨2, ![K, N]⟩ : Shape).Idx → EReal)
    (b : (⟨1, ![N]⟩ : Shape).Idx → EReal) (p : Fin M) (q : Fin N) :
    affine x w b (ix2 p q) = ∑ k : Fin K, x (ix2 p k) * w (ix2 k q) + b (ix1 q) := rfl

/-- One dense layer with the rectifier: the affine map's entry or the zero word's value, whichever is larger. -/
def layer (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => max (affine x w b i) zeroWord

theorem layer_apply (x : (⟨2, ![M, K]⟩ : Shape).Idx → EReal) (w : (⟨2, ![K, N]⟩ : Shape).Idx → EReal)
    (b : (⟨1, ![N]⟩ : Shape).Idx → EReal) (p : Fin M) (q : Fin N) :
    layer x w b (ix2 p q) = max (∑ k : Fin K, x (ix2 p k) * w (ix2 k q) + b (ix1 q)) zeroWord := rfl

/-- A row's largest logit as both programs take it: the fold of max from minus infinity's word over the row, once more
    against that word. -/
def rowTop (l : Fin N → EReal) : EReal := max negInfWord ((Finset.univ : Finset (Fin N)).fold max negInfWord l)

/-- A softmax row as both programs compute it: each logit less the row's largest, exponentiated, over the sum of those
    exponentials (the exact quotient of extended reals). -/
def softmaxRow (l : Fin N → EReal) (v : Fin N) : EReal :=
  Ideal.div (Ideal.exp (l v - rowTop l)) (∑ u : Fin N, Ideal.exp (l u - rowTop l))

end Cert.LibDense

end
-- ==== Proof.BlockValue.lean ====
/-
  What the kernel's body leaves in one batch element's output block, at exact arithmetic.

  The body multiplies the element's 256 × 640 rows by the operator four column chunks at a time: chunk `j` is the
  operator's columns `640 j … 640 j + 639`, its 256 × 640 product is read as 256 × 20 × 32 and stored as output rows
  `20 j … 20 j + 19`. Output pixel `(20 j + h', w)` is therefore column `640 j + 32 h' + w = 32 (20 j + h') + w` of
  the operator: the four stored pieces are the four row bands of ONE function, `Upsample.block` of the loaded rows and
  of whatever the operator's copy holds. The copy is the scratch buffer: at the first grid point the body fills it with
  the operator (rounded to the narrower float format, which changes nothing at exact arithmetic) and reads it back; at
  every later point it only reads what is there.
-/
import proofs.«168255_g2000202713233477_pallasbulk_1036_7_alg».proof.Proof.Gen.KernelIdeal.Frame
import proofs.«168255_g2000202713233477_pallasbulk_1036_7_alg».proof.Proof.Upsample
import proofs.«168255_g2000202713233477_pallasbulk_1036_7_alg».proof.Proof.LibDense
import Idealize.ShloMosaic.Lib.Pipeline.Value
import Idealize.ShloMosaic.Lib.Tactic

noncomputable section

namespace Cert.KernelIdeal.Body

open Cert.KernelIdeal Cert.KernelIdeal.Gen Cert.Upsample
open Idealize.ShloMosaic Idealize.ShloMosaic.TcCoe Idealize.SL.Sem Idealize.ShloMosaic.ValueIdx
open Idealize.ShloMosaic.Tactic

theorem hz2 : (![0, 0] : Fin 2 → Nat) = fun _ => 0 := funext fun a => by fin_cases a <;> rfl
theorem hz3 : (![0, 0, 0] : Fin 3 → Nat) = fun _ => 0 := funext fun a => by fin_cases a <;> rfl

/-! ## The chunk product's index maps -/

theorem D_rank : dot_S256x640_S640x640_S256x640_1_0_0_1_n_n.contr.rank = 1 := rfl
theorem D_size : dot_S256x640_S640x640_S256x640_1_0_0_1_n_n.contr.size ⟨0, by rw [D_rank]; exact Nat.one_pos⟩ = 640 := rfl

theorem D_l0 (i : S256x640.Idx) (c : dot_S256x640_S640x640_S256x640_1_0_0_1_n_n.contr.Idx) :
    (dot_S256x640_S640x640_S256x640_1_0_0_1_n_n.lhsIdx i c 0).val = (i 0).val := by
  simp [DotDims.lhsIdx, dot_S256x640_S640x640_S256x640_1_0_0_1_n_n]
  rfl

theorem D_l1 (i : S256x640.Idx) (c : dot_S256x640_S640x640_S256x640_1_0_0_1_n_n.contr.Idx) :
    (dot_S256x640_S640x640_S256x640_1_0_0_1_n_n.lhsIdx i c 1).val = (c ⟨0, by rw [D_rank]; exact Nat.one_pos⟩).val :=
  DotDims.lhsIdx_val_of_single _ rfl i c

theorem D_r0 (i : S256x640.Idx) (c : dot_S256x640_S640x640_S256x640_1_0_0_1_n_n.contr.Idx) :
    (dot_S256x640_S640x640_S256x640_1_0_0_1_n_n.rhsIdx i c 0).val = (c ⟨0, by rw [D_rank]; exact Nat.one_pos⟩).val :=
  DotDims.rhsIdx_val_of_single _ rfl i c

theorem D_r1 (i : S256x640.Idx) (c : dot_S256x640_S640x640_S256x640_1_0_0_1_n_n.contr.Idx) :
    (dot_S256x640_S640x640_S256x640_1_0_0_1_n_n.rhsIdx i c 1).val = (i 1).val := by
  simp [DotDims.rhsIdx, dot_S256x640_S640x640_S256x640_1_0_0_1_n_n]
  rfl

/-! ## One chunk at an index -/

/-- The loaded rows, with their unit batch axis dropped and rounded to the narrower format, read at `(c, k)`: the
    loaded block at `(u, c, k)`. -/
theorem rows_apply (x0 : Vec Ideal S1x256x640 .f32) (u : Fin 1) (c : Fin 256) (k : Fin 640) :
    k0_pay3 x0 (ix2 c k) = x0 (ix3 u c k) := by
  unfold k0_pay3
  refine (shapeCast_apply x0 shapeCasts_S1x256x640_S256x640 (ix2 c k) (ix3 u c k) ?_)
  rw [Shape.rowMajor_val_three, Shape.rowMajor_val_two]
  show (u.val * 256 + c.val) * 640 + k.val = c.val * 640 + k.val
  have := u.isLt
  omega

/-- A chunk's product, read as 256 × 20 × 32 and given its unit batch axis, at `(u, c, h', w)`: the row `c` against the
    chunk's column `32 h' + w`. -/
theorem chunk_apply (x0 : Vec Ideal S1x256x640 .f32) (v : FVec Ideal S640x640 .bf16)
    (hA : S256x640.ShapeCasts S256x20x32) (hB : S256x20x32.ShapeCasts S1x256x20x32)
    (u : Fin 1) (c : Fin 256) (h' : Fin 20) (w : Fin 32) :
    shapeCast S1x256x20x32 (shapeCast S256x20x32
        (matmul dot_S256x640_S640x640_S256x640_1_0_0_1_n_n none (k0_pay3 x0) v (constant (F := Ideal) S256x640 .f32 0x00000000#32)) hA) hB
        (ix4 u c h' w)
      = ∑ k : Fin 640, x0 (ix3 u c k) * v (ix2 k (⟨32 * h'.val + w.val, by have := h'.isLt; have := w.isLt; omega⟩ : Fin 640)) := by
  refine (shapeCast_apply _ hB (ix4 u c h' w) (ix3 c h' w) ?_).trans ?_
  · rw [Shape.rowMajor_val_three, Shape.rowMajor_val_four]
    show (c.val * 20 + h'.val) * 32 + w.val = ((u.val * 256 + c.val) * 20 + h'.val) * 32 + w.val
    have := u.isLt
    omega
  refine (shapeCast_apply _ hA (ix3 c h' w) (ix2 c (⟨32 * h'.val + w.val, by have := h'.isLt; have := w.isLt; omega⟩ : Fin 640)) ?_).trans ?_
  · rw [Shape.rowMajor_val_three, Shape.rowMajor_val_two]
    show c.val * 640 + (32 * h'.val + w.val) = (c.val * 20 + h'.val) * 32 + w.val
    omega
  refine (Cert.LibDense.matmul_zero_rc dot_S256x640_S640x640_S256x640_1_0_0_1_n_n D_rank D_size D_l0 D_l1 D_r0 D_r1 none
    (k0_pay3 x0) v c _).trans ?_
  exact Finset.sum_congr rfl fun k _ => congrArg (· * _) (rows_apply x0 u c k)

/-! ## The four stored pieces are row bands of one function -/

/-- `Upsample.block` at an index whose coordinates are known. -/
theorem block_at (x : FlatB.Idx → EReal) (s : Oper.Idx → EReal) (y : ImgB.Idx) (u : Fin 1) (c : Fin 256) (h : Fin 80) (w : Fin 32)
    (e0 : (y 0).val = u.val) (e1 : (y 1).val = c.val) (e2 : (y 2).val = h.val) (e3 : (y 3).val = w.val) :
    block x s y = ∑ k : Fin 640, x (ix3 u c k) * s (ix2 k (col h w)) := by
  obtain rfl : y = ix4 u c h w := funext fun a => Fin.ext (by
    match a with
    | ⟨0, _⟩ => exact e0
    | ⟨1, _⟩ => exact e1
    | ⟨2, _⟩ => exact e2
    | ⟨3, _⟩ => exact e3)
  rfl

/-- Chunk `j`'s stored value, at an index of its 20-row band, is `Upsample.block` of the loaded rows and the operator's
    copy at that index placed in the output block: the chunk's column `32 h' + w` is the copy's column
    `640 j + 32 h' + w`, which is the column of output pixel `(20 j + h', w)`. -/
theorem band_eq (x0 : Vec Ideal S1x256x640 .f32) (s : Vec Ideal S640x2560 .bf16) (j : Nat) (hj : j < 4)
    (offO : Fin 4 → Nat) (hO : offO = ![0, 0, 20 * j, 0]) (inbO : ∀ a, offO a + S1x256x20x32.size a ≤ S1x256x80x32.size a)
    (offS : Fin 2 → Nat) (hS : offS = ![0, 640 * j]) (inbS : ∀ a, offS a + S640x640.size a ≤ S640x2560.size a)
    (hA : S256x640.ShapeCasts S256x20x32) (hB : S256x20x32.ShapeCasts S1x256x20x32) (y : S1x256x20x32.Idx) :
    shapeCast S1x256x20x32 (shapeCast S256x20x32
        (matmul (φ₂ := .bf16) dot_S256x640_S640x640_S256x640_1_0_0_1_n_n none (k0_pay3 x0)
          (View.ld (Val := Elt Ideal) (e' := .bf16) s (Rect.unit (s := S640x2560) offS S640x640.size inbS))
          (constant (F := Ideal) S256x640 .f32 0x00000000#32)) hA) hB y
      = block x0 s ((Rect.unit (s := S1x256x80x32) offO S1x256x20x32.size inbO).emb y) := by
  subst hO hS
  obtain ⟨u, c, h', w, rfl⟩ : ∃ (u : Fin 1) (c : Fin 256) (h' : Fin 20) (w : Fin 32), y = ix4 u c h' w :=
    ⟨y 0, y 1, y 2, y 3, eq_ix4 y⟩
  refine (chunk_apply x0 _ hA hB u c h' w).trans ?_
  refine Eq.trans ?_ (block_at x0 s _ u c (⟨20 * j + h'.val, by have := h'.isLt; omega⟩ : Fin 80) w ?_ ?_ ?_ ?_).symm
  · refine Finset.sum_congr rfl fun k _ => congrArg (x0 (ix3 u c k) * ·) ?_
    show s _ = s _
    refine congrArg s (funext fun a => Fin.ext ?_)
    match a with
    | ⟨0, _⟩ => show 0 + 1 * k.val = k.val; omega
    | ⟨1, _⟩ => show 640 * j + 1 * (32 * h'.val + w.val) = 32 * (20 * j + h'.val) + w.val; omega
  · show 0 + 1 * u.val = u.val; omega
  · show 0 + 1 * c.val = c.val; omega
  · show 20 * j + 1 * h'.val = 20 * j + h'.val; omega
  · show 0 + 1 * w.val = w.val; omega

/-- The operator rounded to the narrower format and cast to its own shape is, at exact arithmetic, the operator. -/
theorem copy_eq (x1 : Vec Ideal S640x2560 .f32) : (k0_pay2 x1 : S640x2560.Idx → EReal) = x1 := by
  unfold k0_pay2
  exact shapeCast_self _ _

/-- A load of part of the scratch buffer right after it was filled whole reads that part of what was stored. -/
theorem readBack {sig' : RefSig} {κ : Kind} {sp : Space} (v : View sig' κ sp S640x2560 .bf16) (wv : S640x2560.Idx → Elt Ideal .bf16)
    (inb : ∀ a, (![0, 0] : Fin 2 → Nat) a + S640x2560.size a ≤ S640x2560.size a) (r : Rect S640x2560) :
    v.readCov [(⟨Rect.unit (s := S640x2560) ![0, 0] S640x2560.size inb, wv⟩ : View.Piece (Elt Ideal) S640x2560 .bf16)] r.toLoadRect
      = View.ld wv r := by
  rw [View.readCov_eq_canon_ld _ _ _ (fun y => ⟨_, List.mem_singleton_self _, View.mem_set_unit_zero hz2 inb y⟩),
    View.canon_unit_zero hz2]

/-- A LATER POINT (the scratch buffer already holds `xs0`): the output block ends at `Upsample.block` of the loaded
    rows and `xs0`. -/
theorem out_B (c : Dev nD) (i : grid0.Coords) (a1 : Memref sig .tc .vmem S1x256x640 .f32) (h1 : a1.IsWhole)
    (a2 : Memref sig .tc .vmem S640x2560 .f32) (h2 : a2.IsWhole) (a3 : Memref sig .tc .vmem S1x256x80x32 .f32) (h3 : a3.IsWhole)
    (a4 : Memref sig .tc .vmem S640x2560 .bf16) (h4 : a4.IsWhole) (hc : ¬cond0_0 i)
    (x0 : Vec Ideal S1x256x640 .f32) (x1 : Vec Ideal S640x2560 .f32) (xs0 : Vec Ideal S640x2560 .bf16) :
    out0_B_2 (F := Ideal) c i a1 h1 a2 h2 a3 h3 a4 h4 hc x0 x1 xs0 = block x0 xs0 := by
  unfold out0_B_2
  rw [View.read_writes_eq_canon _ _ _ (cover0_B_2 c i a1 h1 a2 h2 a3 h3 a4 h4 hc x0 x1 xs0)]
  funext y
  have hcov := cover0_B_2 c i a1 h1 a2 h2 a3 h3 a4 h4 hc x0 x1 xs0 y
  revert hcov
  unfold kernelRun0_B
  dsimp only
  sl_unfold_words
  simp only [View.readAt_eq_ld, h1.read_unread, h4.read_unread, View.ld_unit_zero (S := S1x256x640) hz3]
  intro hcov
  refine View.canon_apply_of_pieces (block x0 xs0) _ ?_ y hcov
  intro p hp x
  simp only [List.mem_cons, List.not_mem_nil, or_false] at hp
  rcases hp with rfl | rfl | rfl | rfl
  · exact band_eq x0 xs0 3 (by omega) ![0, 0, 60, 0] rfl Facts₀.inb_S1x256x80x32_S1x256x20x32_0_0_60_0 ![0, 1920] rfl
      Facts₀.inb_S640x2560_S640x640_0_1920 Facts₀.shapeCasts_S256x640_S256x20x32 Facts₀.shapeCasts_S256x20x32_S1x256x20x32 x
  · exact band_eq x0 xs0 2 (by omega) ![0, 0, 40, 0] rfl Facts₀.inb_S1x256x80x32_S1x256x20x32_0_0_40_0 ![0, 1280] rfl
      Facts₀.inb_S640x2560_S640x640_0_1280 Facts₀.shapeCasts_S256x640_S256x20x32 Facts₀.shapeCasts_S256x20x32_S1x256x20x32 x
  · exact band_eq x0 xs0 1 (by omega) ![0, 0, 20, 0] rfl Facts₀.inb_S1x256x80x32_S1x256x20x32_0_0_20_0 ![0, 640] rfl
      Facts₀.inb_S640x2560_S640x640_0_640 Facts₀.shapeCasts_S256x640_S256x20x32 Facts₀.shapeCasts_S256x20x32_S1x256x20x32 x
  · exact band_eq x0 xs0 0 (by omega) ![0, 0, 0, 0] rfl Facts₀.inb_S1x256x80x32_S1x256x20x32_0_0_0_0 ![0, 0] rfl
      Facts₀.inb_S640x2560_S640x640_0_0 Facts₀.shapeCasts_S256x640_S256x20x32 Facts₀.shapeCasts_S256x20x32_S1x256x20x32 x

/-- THE FIRST POINT: the body fills the scratch buffer with the operator's copy, reads its four chunks back, and the
    output block ends at `Upsample.block` of the loaded rows and that copy. -/
theorem out_A (c : Dev nD) (i : grid0.Coords) (a1 : Memref sig .tc .vmem S1x256x640 .f32) (h1 : a1.IsWhole)
    (a2 : Memref sig .tc .vmem S640x2560 .f32) (h2 : a2.IsWhole) (a3 : Memref sig .tc .vmem S1x256x80x32 .f32) (h3 : a3.IsWhole)
    (a4 : Memref sig .tc .vmem S640x2560 .bf16) (h4 : a4.IsWhole) (hc : cond0_0 i)
    (x0 : Vec Ideal S1x256x640 .f32) (x1 : Vec Ideal S640x2560 .f32) :
    out0_A_2 (F := Ideal) c i a1 h1 a2 h2 a3 h3 a4 h4 hc x0 x1 = block x0 (k0_pay2 x1) := by
  unfold out0_A_2
  rw [View.read_writes_eq_canon _ _ _ (cover0_A_2 c i a1 h1 a2 h2 a3 h3 a4 h4 hc x0 x1)]
  funext y
  have hcov := cover0_A_2 c i a1 h1 a2 h2 a3 h3 a4 h4 hc x0 x1 y
  revert hcov
  unfold kernelRun0_A
  dsimp only
  sl_unfold_words
  simp only [View.readAt_eq_ld, h1.read_unread, h2.read_unread, View.ld_unit_zero (S := S1x256x640) hz3,
    View.ld_unit_zero (S := S640x2560) hz2]
  intro hcov
  refine View.canon_apply_of_pieces (block x0 (k0_pay2 x1)) _ ?_ y hcov
  intro p hp x
  simp only [List.mem_cons, List.not_mem_nil, or_false] at hp
  rcases hp with rfl | rfl | rfl | rfl
  · exact (congrArg (fun v => k0_pay1 (k0_pay7 x0 v) x) (readBack a4.view (k0_pay2 x1) Facts₀.inb_S640x2560_S640x2560_0_0
        (Rect.unit (s := S640x2560) ![0, 1920] S640x640.size Facts₀.inb_S640x2560_S640x640_0_1920))).trans
      (band_eq x0 (k0_pay2 x1) 3 (by omega) ![0, 0, 60, 0] rfl Facts₀.inb_S1x256x80x32_S1x256x20x32_0_0_60_0 ![0, 1920] rfl
        Facts₀.inb_S640x2560_S640x640_0_1920 Facts₀.shapeCasts_S256x640_S256x20x32 Facts₀.shapeCasts_S256x20x32_S1x256x20x32 x)
  · exact (congrArg (fun v => k0_pay6 x0 v x) (readBack a4.view (k0_pay2 x1) Facts₀.inb_S640x2560_S640x2560_0_0
        (Rect.unit (s := S640x2560) ![0, 1280] S640x640.size Facts₀.inb_S640x2560_S640x640_0_1280))).trans
      (band_eq x0 (k0_pay2 x1) 2 (by omega) ![0, 0, 40, 0] rfl Facts₀.inb_S1x256x80x32_S1x256x20x32_0_0_40_0 ![0, 1280] rfl
        Facts₀.inb_S640x2560_S640x640_0_1280 Facts₀.shapeCasts_S256x640_S256x20x32 Facts₀.shapeCasts_S256x20x32_S1x256x20x32 x)
  · exact (congrArg (fun v => k0_pay5 x0 v x) (readBack a4.view (k0_pay2 x1) Facts₀.inb_S640x2560_S640x2560_0_0
        (Rect.unit (s := S640x2560) ![0, 640] S640x640.size Facts₀.inb_S640x2560_S640x640_0_640))).trans
      (band_eq x0 (k0_pay2 x1) 1 (by omega) ![0, 0, 20, 0] rfl Facts₀.inb_S1x256x80x32_S1x256x20x32_0_0_20_0 ![0, 640] rfl
        Facts₀.inb_S640x2560_S640x640_0_640 Facts₀.shapeCasts_S256x640_S256x20x32 Facts₀.shapeCasts_S256x20x32_S1x256x20x32 x)
  · exact (congrArg (fun v => k0_pay4 x0 v x) (readBack a4.view (k0_pay2 x1) Facts₀.inb_S640x2560_S640x2560_0_0
        (Rect.unit (s := S640x2560) ![0, 0] S640x640.size Facts₀.inb_S640x2560_S640x640_0_0))).trans
      (band_eq x0 (k0_pay2 x1) 0 (by omega) ![0, 0, 0, 0] rfl Facts₀.inb_S1x256x80x32_S1x256x20x32_0_0_0_0 ![0, 0] rfl
        Facts₀.inb_S640x2560_S640x640_0_0 Facts₀.shapeCasts_S256x640_S256x20x32 Facts₀.shapeCasts_S256x20x32_S1x256x20x32 x)

/-- THE FIRST POINT leaves the operator's copy in the scratch buffer. -/
theorem scratch_A (c : Dev nD) (i : grid0.Coords) (a1 : Memref sig .tc .vmem S1x256x640 .f32) (h1 : a1.IsWhole)
    (a2 : Memref sig .tc .vmem S640x2560 .f32) (h2 : a2.IsWhole) (a3 : Memref sig .tc .vmem S1x256x80x32 .f32) (h3 : a3.IsWhole)
    (a4 : Memref sig .tc .vmem S640x2560 .bf16) (h4 : a4.IsWhole) (hc : cond0_0 i)
    (x0 : Vec Ideal S1x256x640 .f32) (x1 : Vec Ideal S640x2560 .f32) :
    sout0_A_0 (F := Ideal) c i a1 h1 a2 h2 a3 h3 a4 h4 hc x0 x1 = k0_pay2 x1 := by
  unfold sout0_A_0
  rw [View.read_writes_eq_canon _ _ _ (scover0_A_0 c i a1 h1 a2 h2 a3 h3 a4 h4 hc x0 x1)]
  unfold kernelRun0_A
  dsimp only
  sl_unfold_words
  rw [View.canon_unit_zero hz2]
  simp only [View.readAt_eq_ld, h2.read_unread, View.ld_unit_zero (S := S640x2560) hz2]

end Cert.KernelIdeal.Body

end
-- ==== Proof.KernelValue.lean ====
/-
  The kernel program's result, at exact arithmetic.

  The grid has one point per batch element. Point `t` loads batch element `t` of the flattened input and the whole
  operator, and its body leaves `Upsample.block` of the loaded rows and of the scratch buffer's contents in the output
  block (Proof/BlockValue.lean). The scratch buffer holds the operator from the first point on: the first point stores
  it there and no later point writes it (`scratch_eq`, by induction on the point). So what point `t` writes back is
  batch element `t` of `Upsample.image` of the flattened input and the operator; the sixteen blocks tile the output
  array, which therefore ends holding `Upsample.image`.
-/
import proofs.«168255_g2000202713233477_pallasbulk_1036_7_alg».proof.Proof.Gen.KernelIdeal.Value
import proofs.«168255_g2000202713233477_pallasbulk_1036_7_alg».proof.Proof.BlockValue
import Idealize.ShloMosaic.Lib.Pipeline.Value
import Idealize.ShloMosaic.Lib.StableHlo.Run
import Idealize.ShloMosaic.Lib.Tactic

noncomputable section

namespace Cert.KernelIdeal.KValue

open Cert.KernelIdeal Cert.KernelIdeal.Gen Cert.KernelIdeal.Body Cert.Upsample
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The blocks, read off the arrays -/

/-- The printed index maps, decided over the sixteen grid points: the input's and the output's blocks are the batch
    element `t`, the operator's block is the whole operator. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- The input window's block at point `t` is batch element `t` of the flattened input. -/
theorem iblk0_apply (c : Dev nD) (t : Fin cfg0.N) (u : Fin 1) (ch : Fin 256) (k : Fin 640) :
    iblk m c 0 t (ix3 u ch k) = V m c main_v0 (ix3 (⟨t.val, lt_of_lt_of_eq t.isLt N_0⟩ : Fin 16) ch k) := by
  obtain ⟨e0, e1, e2, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 3) * 1 + 1 * u.val = t.val; have := u.isLt; omega
  | ⟨1, _⟩ => show win0_0.index t (1 : Fin 3) * 256 + 1 * ch.val = ch.val; omega
  | ⟨2, _⟩ => show win0_0.index t (2 : Fin 3) * 640 + 1 * k.val = k.val; omega

/-- The operator's window's block at any point is the operator. -/
theorem iblk1_apply (c : Dev nD) (t : Fin cfg0.N) (k : Fin 640) (q : Fin 2560) :
    iblk m c 1 t (ix2 k q) = V m c main_arg1 (ix2 k q) := by
  obtain ⟨-, -, -, e0, e1, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 640 + 1 * k.val = k.val; omega
  | ⟨1, _⟩ => show win0_1.index t (1 : Fin 2) * 2560 + 1 * q.val = q.val; omega

/-! ## The scratch buffer holds the operator after every point -/

theorem snd_of_eq {α β : Type} {p : α × β} {a : α} {b : β} (h : p = (a, b)) : p.2 = b := by rw [h]

/-- The first point stores the operator's copy. -/
theorem scratch_zero (c : Dev nD) (hn : 0 < cfg0.N) : (outsAt0 m c 0 hn).2 = k0_pay2 (iblk m c 1 ⟨0, hn⟩) :=
  (snd_of_eq (outsAt0_A m c ⟨0, hn⟩ rfl)).trans
    (scratch_A c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) scM0_0 (Memref.isWhole_whole _) ((hcond0_0 ⟨0, hn⟩).mpr rfl)
      (iblk m c 0 ⟨0, hn⟩) (iblk m c 1 ⟨0, hn⟩))

/-- A later point leaves the scratch buffer as the point before left it. -/
theorem scratch_succ (c : Dev nD) (n : ℕ) (hn : n + 1 < cfg0.N) :
    (outsAt0 m c (n + 1) hn).2 = (outsAt0 m c n (Nat.lt_of_succ_lt hn)).2 := by
  have hN : cfg0.N = 16 := N_0
  have hB : ¬(⟨n + 1, hn⟩ : Fin cfg0.N).val % 16 = 0 := by dsimp only; omega
  exact snd_of_eq (outsAt0_B m c ⟨n + 1, hn⟩ hB)

theorem scratch_eq (c : Dev nD) (n : ℕ) (hn : n < cfg0.N) (k : Fin 640) (q : Fin 2560) :
    (outsAt0 m c n hn).2 (ix2 k q) = V m c main_arg1 (ix2 k q) := by
  induction n with
  | zero =>
    rw [scratch_zero m c hn]
    exact (congrFun (copy_eq (iblk m c 1 ⟨0, hn⟩)) (ix2 k q)).trans (iblk1_apply m c ⟨0, hn⟩ k q)
  | succ n ih =>
    rw [scratch_succ m c n hn]
    exact ih (Nat.lt_of_succ_lt hn)

/-! ## What each point writes back, and the array after the run -/

/-- What point `t` writes back is its block of `Upsample.image` of the flattened input and the operator. -/
theorem flushed_eq (c : Dev nD) (t : Fin cfg0.N) :
    (dats m 0 c).flushed 2 t = ((cfg0.win 2).blk t).view.read (Elt Ideal) (image (V m c main_v0) (V m c main_arg1)) := by
  have hN : t.val < 16 := lt_of_lt_of_eq t.isLt N_0
  obtain ⟨-, -, -, -, -, e0, e1, e2, e3⟩ := idx_facts t
  by_cases h0 : t.val % 16 = 0
  · refine (Value.flushed2_A m c t h0).trans ?_
    refine (congrArg ((cfg0.win 2).cut (grid0.coords t)) (out_A c (grid0.coords t) (ms0_0 t) (hs0_0 t) (ms0_1 t) (hs0_1 t)
      (ms0_2 t) (hs0_2 t) scM0_0 (Memref.isWhole_whole _) ((hcond0_0 t).mpr h0) (iblk m c 0 t) (iblk m c 1 t))).trans ?_
    funext j
    show block (iblk m c 0 t) (k0_pay2 (iblk m c 1 t)) j
      = image (V m c main_v0) (V m c main_arg1) (((cfg0.win 2).blk t).view.emb j)
    refine block_eq_image (V m c main_v0) (V m c main_arg1) _ _ (⟨t.val, hN⟩ : Fin 16)
      (fun u ch k => iblk0_apply m c t u ch k)
      (fun k q => (congrFun (copy_eq (iblk m c 1 t)) (ix2 k q)).trans (iblk1_apply m c t k q)) j _ ?_ ?_ ?_ ?_
    · show win0_2.index t (0 : Fin 4) * 1 + 1 * (j 0).val = t.val; have : (j 0).val < 1 := (j 0).isLt; omega
    · show win0_2.index t (1 : Fin 4) * 256 + 1 * (j 1).val = (j 1).val; omega
    · show win0_2.index t (2 : Fin 4) * 80 + 1 * (j 2).val = (j 2).val; omega
    · show win0_2.index t (3 : Fin 4) * 32 + 1 * (j 3).val = (j 3).val; omega
  · refine (Value.flushed2_B m c t h0).trans ?_
    refine (congrArg ((cfg0.win 2).cut (grid0.coords t)) (out_B c (grid0.coords t) (ms0_0 t) (hs0_0 t) (ms0_1 t) (hs0_1 t)
      (ms0_2 t) (hs0_2 t) scM0_0 (Memref.isWhole_whole _) (fun h => h0 ((hcond0_0 t).mp h)) (iblk m c 0 t) (iblk m c 1 t)
      (outsAt0 m c (t.val - 1) (Nat.lt_of_le_of_lt (Nat.sub_le _ _) t.isLt)).2)).trans ?_
    funext j
    show block (iblk m c 0 t) (outsAt0 m c (t.val - 1) (Nat.lt_of_le_of_lt (Nat.sub_le _ _) t.isLt)).2 j
      = image (V m c main_v0) (V m c main_arg1) (((cfg0.win 2).blk t).view.emb j)
    refine block_eq_image (V m c main_v0) (V m c main_arg1) _ _ (⟨t.val, hN⟩ : Fin 16)
      (fun u ch k => iblk0_apply m c t u ch k)
      (fun k q => scratch_eq m c (t.val - 1) (Nat.lt_of_le_of_lt (Nat.sub_le _ _) t.isLt) k q) j _ ?_ ?_ ?_ ?_
    · show win0_2.index t (0 : Fin 4) * 1 + 1 * (j 0).val = t.val; have : (j 0).val < 1 := (j 0).isLt; omega
    · show win0_2.index t (1 : Fin 4) * 256 + 1 * (j 1).val = (j 1).val; omega
    · show win0_2.index t (2 : Fin 4) * 80 + 1 * (j 2).val = (j 2).val; omega
    · show win0_2.index t (3 : Fin 4) * 32 + 1 * (j 3).val = (j 3).val; omega

/-- An index of the array is in point `t`'s block iff each coordinate is in the block's range on its axis. -/
theorem mem_blk (t : Fin cfg0.N) (i : S16x256x80x32.Idx) :
    i ∈ ((cfg0.win 2).blk t).view.set ↔ ∀ a : Fin 4, win0_2.index t a * S1x256x80x32.size a ≤ (i a).val ∧ (i a).val < win0_2.index t a * S1x256x80x32.size a + S1x256x80x32.size a := by
  show i ∈ ((View.whole main_v1).slice (win0_2.rect t)).set ↔ _
  rw [View.set_slice_whole, Rect.mem_set_unit]
  exact Iff.rfl

/-- After the grid the output array holds `Upsample.image`: batch element `b` is written by point `b`. -/
theorem final (c : Dev nD) : (dats m 0 c).arrAt 2 cfg0.N = image (V m c main_v0) (V m c main_arg1) :=
  (dats m 0 c).arrAt_eq_of_cover 2 (image (V m c main_v0) (V m c main_arg1)) (fun t _ => flushed_eq m c t) fun i => by
    have hi0 : (i 0).val < 16 := (i 0).isLt
    have hi1 : (i 1).val < 256 := (i 1).isLt
    have hi2 : (i 2).val < 80 := (i 2).isLt
    have hi3 : (i 3).val < 32 := (i 3).isLt
    refine ⟨⟨(i 0).val, by rw [show cfg0.N = 16 from N_0]; exact hi0⟩, flush0_2 _, ?_⟩
    rw [mem_blk]
    obtain ⟨-, -, -, -, -, e0, e1, e2, e3⟩ := idx_facts ⟨(i 0).val, by rw [show cfg0.N = 16 from N_0]; exact hi0⟩
    intro a
    match a with
    | ⟨0, _⟩ => show win0_2.index _ (0 : Fin 4) * 1 ≤ (i 0).val ∧ (i 0).val < win0_2.index _ (0 : Fin 4) * 1 + 1; rw [e0]; dsimp only; omega
    | ⟨1, _⟩ => show win0_2.index _ (1 : Fin 4) * 256 ≤ (i 1).val ∧ (i 1).val < win0_2.index _ (1 : Fin 4) * 256 + 256; rw [e1]; omega
    | ⟨2, _⟩ => show win0_2.index _ (2 : Fin 4) * 80 ≤ (i 2).val ∧ (i 2).val < win0_2.index _ (2 : Fin 4) * 80 + 80; rw [e2]; omega
    | ⟨3, _⟩ => show win0_2.index _ (3 : Fin 4) * 32 ≤ (i 3).val ∧ (i 3).val < win0_2.index _ (3 : Fin 4) * 32 + 32; rw [e3]; omega

/-! ## The run -/

/-- The flattened input as the region finds it: the host's reshape of the input argument. -/
theorem V_main_v0 (c : Dev nD) :
    (V m c main_v0 : S16x256x640.Idx → EReal)
      = shapeCast S16x256x640 (m ((c : Thread nD τ).loc main_arg0)) Facts₀.shapeCasts_S16x256x40x16_S16x256x640 := by
  dsimp only [Gen.V, Gen.hostOps0]
  after_results
  rfl

/-- Every weakly fair execution of the kernel program ends with the output array at `Upsample.image` of the reshaped
    input and the operator, the arguments unchanged. -/
theorem run : θ_run defs (onTc (τ := τ) (main (F := Ideal))) ⟨m, fun _ => 0, ρ⟩ fun r => ∀ c : Dev nD,
      r.2.mem ((c : Thread nD τ).loc main_v1)
        = image (shapeCast S16x256x640 (m ((c : Thread nD τ).loc main_arg0)) Facts₀.shapeCasts_S16x256x40x16_S16x256x640)
            (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [V_main_v0 m c, V_main_arg1 m c])), (h c).2⟩)
    (Value.run_blocks m ρ)

end Cert.KernelIdeal.KValue

end
-- ==== Proof.RefValue.lean ====
/-
  The reference program's result, at exact arithmetic.

  The reference flattens the input images (a host reshape), multiplies each batch element's 256 × 640 rows by the whole
  operator in one product per grid point, writes the 256 × 2560 result as that batch element's slice of a
  [16, 256, 2560] array, and finally reads each row's 2560 columns as 80 × 32 pixels (a host reshape). So the array
  the grid leaves is `Upsample.rows` of the flattened input and the operator, and the program's result is
  `Upsample.image` of them (`Upsample.shapeCast_rows`).
-/
import proofs.«168255_g2000202713233477_pallasbulk_1036_7_alg».proof.Proof.Gen.ReferenceIdeal.Frame
import proofs.«168255_g2000202713233477_pallasbulk_1036_7_alg».proof.Proof.Upsample
import proofs.«168255_g2000202713233477_pallasbulk_1036_7_alg».proof.Proof.LibDense
import Idealize.ShloMosaic.Lib.Pipeline.Value
import Idealize.ShloMosaic.Lib.StableHlo.Run
import Idealize.ShloMosaic.Lib.Tactic

noncomputable section

namespace Cert.ReferenceIdeal.RefValue

open Cert.ReferenceIdeal Cert.ReferenceIdeal.Gen Cert.Upsample
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The product's index maps -/

theorem D_rank : dot_S256x640_S640x2560_S256x2560_1_0_0_1_n_n.contr.rank = 1 := rfl
theorem D_size : dot_S256x640_S640x2560_S256x2560_1_0_0_1_n_n.contr.size ⟨0, by rw [D_rank]; exact Nat.one_pos⟩ = 640 := rfl

theorem D_l0 (i : S256x2560.Idx) (c : dot_S256x640_S640x2560_S256x2560_1_0_0_1_n_n.contr.Idx) :
    (dot_S256x640_S640x2560_S256x2560_1_0_0_1_n_n.lhsIdx i c 0).val = (i 0).val := by
  simp [DotDims.lhsIdx, dot_S256x640_S640x2560_S256x2560_1_0_0_1_n_n]
  rfl

theorem D_l1 (i : S256x2560.Idx) (c : dot_S256x640_S640x2560_S256x2560_1_0_0_1_n_n.contr.Idx) :
    (dot_S256x640_S640x2560_S256x2560_1_0_0_1_n_n.lhsIdx i c 1).val = (c ⟨0, by rw [D_rank]; exact Nat.one_pos⟩).val :=
  DotDims.lhsIdx_val_of_single _ rfl i c

theorem D_r0 (i : S256x2560.Idx) (c : dot_S256x640_S640x2560_S256x2560_1_0_0_1_n_n.contr.Idx) :
    (dot_S256x640_S640x2560_S256x2560_1_0_0_1_n_n.rhsIdx i c 0).val = (c ⟨0, by rw [D_rank]; exact Nat.one_pos⟩).val :=
  DotDims.rhsIdx_val_of_single _ rfl i c

theorem D_r1 (i : S256x2560.Idx) (c : dot_S256x640_S640x2560_S256x2560_1_0_0_1_n_n.contr.Idx) :
    (dot_S256x640_S640x2560_S256x2560_1_0_0_1_n_n.rhsIdx i c 1).val = (i 1).val := by
  simp [DotDims.rhsIdx, dot_S256x640_S640x2560_S256x2560_1_0_0_1_n_n]
  rfl

/-! ## What a grid point stores -/

/-- The body's stored value is `Upsample.rowsBlock` of its two loaded blocks: the rows' unit batch axis is dropped, the
    product taken into a zero accumulator, and the unit axis put back. -/
theorem pay_eq (x0 : Vec Ideal S1x256x640 .f32) (x1 : Vec Ideal S640x2560 .f32) : k0_pay1 x0 x1 = rowsBlock x0 x1 := by
  funext y
  obtain ⟨u, c, q, rfl⟩ : ∃ (u : Fin 1) (c : Fin 256) (q : Fin 2560), y = ix3 u c q := ⟨y 0, y 1, y 2, eq_ix3 y⟩
  unfold k0_pay1
  refine (shapeCast_apply _ shapeCasts_S256x2560_S1x256x2560 (ix3 u c q) (ix2 c q) ?_).trans ?_
  · rw [Shape.rowMajor_val_three, Shape.rowMajor_val_two]
    show c.val * 2560 + q.val = (u.val * 256 + c.val) * 2560 + q.val
    have := u.isLt
    omega
  refine (Cert.LibDense.matmul_zero_rc dot_S256x640_S640x2560_S256x2560_1_0_0_1_n_n D_rank D_size D_l0 D_l1 D_r0 D_r1 none
    _ x1 c q).trans ?_
  refine Finset.sum_congr rfl fun k _ => congrArg (· * _) ?_
  refine (shapeCast_apply x0 shapeCasts_S1x256x640_S256x640 (ix2 c k) (ix3 u c k) ?_)
  rw [Shape.rowMajor_val_three, Shape.rowMajor_val_two]
  show (u.val * 256 + c.val) * 640 + k.val = c.val * 640 + k.val
  have := u.isLt
  omega

/-- The output's staging buffer after the body: its one store covers it. -/
theorem out_eq (x0 : Vec Ideal S1x256x640 .f32) (x1 : Vec Ideal S640x2560 .f32) : out0_2 x0 x1 = rowsBlock x0 x1 := by
  unfold out0_2
  rw [View.canon_unit_zero hz3]
  simp only [View.ld_unit_zero (S := S1x256x640) hz3, View.ld_unit_zero (S := S640x2560) hz2]
  exact pay_eq x0 x1

/-! ## The blocks, read off the arrays -/

/-- The printed index maps, decided over the sixteen grid points: the input's and the output's blocks are the batch
    element `t`, the operator's block is the whole operator. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The input window's block at point `t` is batch element `t` of the flattened input. -/
theorem iblk0_apply (c : Dev nD) (t : Fin cfg0.N) (u : Fin 1) (ch : Fin 256) (k : Fin 640) :
    iblk m c 0 t (ix3 u ch k) = V m c main_v0 (ix3 (⟨t.val, lt_of_lt_of_eq t.isLt N_0⟩ : Fin 16) ch k) := by
  obtain ⟨e0, e1, e2, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 3) * 1 + 1 * u.val = t.val; have := u.isLt; omega
  | ⟨1, _⟩ => show win0_0.index t (1 : Fin 3) * 256 + 1 * ch.val = ch.val; omega
  | ⟨2, _⟩ => show win0_0.index t (2 : Fin 3) * 640 + 1 * k.val = k.val; omega

/-- The operator's window's block at any point is the operator. -/
theorem iblk1_apply (c : Dev nD) (t : Fin cfg0.N) (k : Fin 640) (q : Fin 2560) :
    iblk m c 1 t (ix2 k q) = V m c main_arg1 (ix2 k q) := by
  obtain ⟨-, -, -, e0, e1, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 640 + 1 * k.val = k.val; omega
  | ⟨1, _⟩ => show win0_1.index t (1 : Fin 2) * 2560 + 1 * q.val = q.val; omega

/-! ## The array the grid leaves -/

/-- What point `t` writes back is its block of `Upsample.rows` of the flattened input and the operator. -/
theorem flushed_eq (c : Dev nD) (t : Fin cfg0.N) :
    (dats m 0 c).flushed 2 t = ((cfg0.win 2).blk t).view.read (Elt Ideal) (rows (V m c main_v0) (V m c main_arg1)) := by
  show (cfg0.win 2).cut (grid0.coords t) ((dats m 0 c).after 2 t) = _
  rw [after0_2]
  refine (out_eq _ _).trans ?_
  obtain ⟨-, -, -, -, -, e0, e1, e2⟩ := idx_facts t
  funext j
  show rowsBlock (iblk m c 0 t) (iblk m c 1 t) j = rows (V m c main_v0) (V m c main_arg1) (((cfg0.win 2).blk t).view.emb j)
  refine rowsBlock_eq_rows (V m c main_v0) (V m c main_arg1) _ _ (⟨t.val, lt_of_lt_of_eq t.isLt N_0⟩ : Fin 16)
    (fun u ch k => iblk0_apply m c t u ch k) (fun k q => iblk1_apply m c t k q) j _ ?_ ?_ ?_
  · show win0_2.index t (0 : Fin 3) * 1 + 1 * (j 0).val = t.val; have : (j 0).val < 1 := (j 0).isLt; omega
  · show win0_2.index t (1 : Fin 3) * 256 + 1 * (j 1).val = (j 1).val; omega
  · show win0_2.index t (2 : Fin 3) * 2560 + 1 * (j 2).val = (j 2).val; omega

/-- An index of the array is in point `t`'s block iff each coordinate is in the block's range on its axis. -/
theorem mem_blk (t : Fin cfg0.N) (i : S16x256x2560.Idx) :
    i ∈ ((cfg0.win 2).blk t).view.set ↔ ∀ a : Fin 3, win0_2.index t a * S1x256x2560.size a ≤ (i a).val ∧ (i a).val < win0_2.index t a * S1x256x2560.size a + S1x256x2560.size a := by
  show i ∈ ((View.whole main_v1).slice (win0_2.rect t)).set ↔ _
  rw [View.set_slice_whole, Rect.mem_set_unit]
  exact Iff.rfl

/-- After the grid the product array holds `Upsample.rows`: batch element `b` is written by point `b`. -/
theorem final (c : Dev nD) : (dats m 0 c).arrAt 2 cfg0.N = rows (V m c main_v0) (V m c main_arg1) :=
  (dats m 0 c).arrAt_eq_of_cover 2 (rows (V m c main_v0) (V m c main_arg1)) (fun t _ => flushed_eq m c t) fun i => by
    have hi0 : (i 0).val < 16 := (i 0).isLt
    have hi1 : (i 1).val < 256 := (i 1).isLt
    have hi2 : (i 2).val < 2560 := (i 2).isLt
    refine ⟨⟨(i 0).val, by rw [show cfg0.N = 16 from N_0]; exact hi0⟩, flush0_2 _, ?_⟩
    rw [mem_blk]
    obtain ⟨-, -, -, -, -, e0, e1, e2⟩ := idx_facts ⟨(i 0).val, by rw [show cfg0.N = 16 from N_0]; exact hi0⟩
    intro a
    match a with
    | ⟨0, _⟩ => show win0_2.index _ (0 : Fin 3) * 1 ≤ (i 0).val ∧ (i 0).val < win0_2.index _ (0 : Fin 3) * 1 + 1; rw [e0]; dsimp only; omega
    | ⟨1, _⟩ => show win0_2.index _ (1 : Fin 3) * 256 ≤ (i 1).val ∧ (i 1).val < win0_2.index _ (1 : Fin 3) * 256 + 256; rw [e1]; omega
    | ⟨2, _⟩ => show win0_2.index _ (2 : Fin 3) * 2560 ≤ (i 2).val ∧ (i 2).val < win0_2.index _ (2 : Fin 3) * 2560 + 2560; rw [e2]; omega

/-! ## The host lines around the grid, and the run -/

/-- The flattened input as the region finds it: the host's reshape of the input argument. -/
theorem V_main_v0 (c : Dev nD) :
    (V m c main_v0 : S16x256x640.Idx → EReal)
      = shapeCast S16x256x640 (m ((c : Thread nD τ).loc main_arg0)) Facts₀.shapeCasts_S16x256x40x16_S16x256x640 := by
  show StableHlo.after hostOps0 (fun b => m (c, b)) (Proc.devRef .tc main_v0) = _
  after_results
  rfl

/-- The program's result: the host's last line reads the product array's rows as 80 × 32 images. -/
theorem tail_eq (c : Dev nD) :
    Pipeline.afterTail₀ cfgs (dats m) 0 (V0 m) [hostOps1] c main_v2
      = image (shapeCast S16x256x640 (m ((c : Thread nD τ).loc main_arg0)) Facts₀.shapeCasts_S16x256x40x16_S16x256x640)
          (m ((c : Thread nD τ).loc main_arg1)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = rows (V m c main_v0) (V m c main_arg1) :=
    (Pipeline.withArrays_arr spec0 launch0.win.arr_inj c _ _ 2).trans (final m c)
  refine Eq.trans ?_ ((shapeCast_rows (V m c main_v0) (V m c main_arg1) Facts₀.shapeCasts_S16x256x2560_S16x256x80x32).trans
    (by rw [V_main_v0 m c, V_main_arg1 m c]))
  exact congrArg (fun A => shapeCast S16x256x80x32 A Facts₀.shapeCasts_S16x256x2560_S16x256x80x32) e

/-- Every weakly fair execution of the reference program ends with its result at `Upsample.image` of the reshaped
    input and the operator, the arguments unchanged. -/
theorem run : θ_run defs (onTc (τ := τ) (main (F := Ideal))) ⟨m, fun _ => 0, ρ⟩ fun r => ∀ c : Dev nD,
      r.2.mem ((c : Thread nD τ).loc main_v2)
        = image (shapeCast S16x256x640 (m ((c : Thread nD τ).loc main_arg0)) Facts₀.shapeCasts_S16x256x40x16_S16x256x640)
            (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.ReferenceIdeal.RefValue

end
-- ==== Proof.lean ====
/-
  The proof of `Cert.Claim`: the tiled upsampling kernel against its one-product reference.

  Both programs flatten the input images to [16, 256, 640] and multiply every (batch, channel) row by the operator
  `M` [640, 2560]; output pixel `(h, w)` of an 80 × 32 image is the row's product with column `32 h + w`:

      result (b, c, h, w) = Σ_k x (b, c, k) · M (k, 32 h + w)            (`Cert.Upsample.image`).

  The reference takes the whole 256 × 2560 product per batch element and reshapes its columns to 80 × 32 on the host.
  The kernel copies the operator into a scratch buffer at the first grid point (in a narrower float format: the
  identity at exact arithmetic), and at every point takes the product in four 640-column chunks, storing chunk `j` as
  output rows `20 j … 20 j + 19`. Column `32 h' + w` of chunk `j` is column `32 (20 j + h') + w` of the operator, so both
  programs compute the same sum over `k` term by term; no law of arithmetic is needed, only the index bookkeeping, and
  the precondition is never opened.

  Proof/Upsample.lean states the sum; Proof/BlockValue.lean reads the kernel's body at exact arithmetic;
  Proof/KernelValue.lean and Proof/RefValue.lean read the two runs' result arrays as that sum; the three frames are the
  generated ones and the idealization rewrote nothing.
-/
import proofs.«168255_g2000202713233477_pallasbulk_1036_7_alg».proof.Defs
import proofs.«168255_g2000202713233477_pallasbulk_1036_7_alg».proof.Proof.Gen.Kernel
import proofs.«168255_g2000202713233477_pallasbulk_1036_7_alg».proof.Proof.Gen.Kernel.Frame
import proofs.«168255_g2000202713233477_pallasbulk_1036_7_alg».proof.Proof.Gen.KernelIdeal
import proofs.«168255_g2000202713233477_pallasbulk_1036_7_alg».proof.Proof.Gen.KernelIdeal.Frame
import proofs.«168255_g2000202713233477_pallasbulk_1036_7_alg».proof.Proof.Gen.KernelIdeal.Value
import proofs.«168255_g2000202713233477_pallasbulk_1036_7_alg».proof.Proof.Gen.ReferenceIdeal
import proofs.«168255_g2000202713233477_pallasbulk_1036_7_alg».proof.Proof.Gen.ReferenceIdeal.Frame
import proofs.«168255_g2000202713233477_pallasbulk_1036_7_alg».proof.Proof.Gen.Pre_finite_inputs
import proofs.«168255_g2000202713233477_pallasbulk_1036_7_alg».proof.Proof.KernelValue
import proofs.«168255_g2000202713233477_pallasbulk_1036_7_alg».proof.Proof.RefValue
import Idealize.ShloMosaic.Adequacy
import Idealize.ShloMosaic.Init

noncomputable section

namespace Cert.Proof

open Idealize.ShloMosaic Idealize.SL.Sem

/-- The three programs run and leave their arguments unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- At exact arithmetic both programs end with the same array: `Cert.Upsample.image` of the reshaped input and the
    operator. -/
theorem algebraic : Cert.algebraic_KernelIdeal_ReferenceIdeal := by
  intro m ρ m' ρ' _ hagree
  refine ⟨fun c => Cert.Upsample.image
      (shapeCast Cert.KernelIdeal.S16x256x640 (m ((c.tc : Thread Cert.KernelIdeal.nD Cert.KernelIdeal.τ).loc Cert.KernelIdeal.main_arg0))
        Cert.KernelIdeal.Facts₀.shapeCasts_S16x256x40x16_S16x256x640)
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun r h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
